-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S50000x96 .f32) (main_arg1 : IVec S2x800000 32) (main_arg2 : FVec F S96x96 .f32) (main_arg3 : FVec F S96 .f32) (main_arg4 : FVec F S96x96 .f32) (main_arg5 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x192 : Shape := ⟨2, ![96, 192]⟩
abbrev S_ : Shape := ⟨0, ![]⟩
abbrev S192 : Shape := ⟨1, ![192]⟩
abbrev S1x192 : Shape := ⟨2, ![1, 192]⟩
abbrev S50000x192 : Shape := ⟨2, ![50000, 192]⟩
abbrev S5000x96 : Shape := ⟨2, ![5000, 96]⟩
abbrev S5000x192 : Shape := ⟨2, ![5000, 192]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x96 : Shape := ⟨2, ![850000, 96]⟩
abbrev S1x96 : Shape := ⟨2, ![1, 96]⟩

abbrev nBuf : Space → Nat
  | .hbm => 72
  | .vmem => 13
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x192, .f32⟩
  | .hbm, ⟨7, _⟩ => ⟨S_, .f32⟩
  | .hbm, ⟨8, _⟩ => ⟨S96, .f32⟩
  | .hbm, ⟨9, _⟩ => ⟨S192, .f32⟩
  | .hbm, ⟨10, _⟩ => ⟨S1x192, .f32⟩
  | .hbm, ⟨11, _⟩ => ⟨S50000x192, .f32⟩
  | .hbm, ⟨12, _⟩ => ⟨S50000x96, .f32⟩
  | .hbm, ⟨13, _⟩ => ⟨S50000x96, .f32⟩
  | .hbm, ⟨14, _⟩ => ⟨S50000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x96, .f32⟩
  | .hbm, ⟨63, _⟩ => ⟨S850000x1, .f32⟩
  | .hbm, ⟨64, _⟩ => ⟨S850000x96, .f32⟩
  | .hbm, ⟨65, _⟩ => ⟨S850000x96, .f32⟩
  | .hbm, ⟨66, _⟩ => ⟨S_, .f32⟩
  | .hbm, ⟨67, _⟩ => ⟨S50000x96, .f32⟩
  | .hbm, ⟨68, _⟩ => ⟨S850000x1, .i32⟩
  | .hbm, ⟨69, _⟩ => ⟨S50000x96, .f32⟩
  | .hbm, ⟨70, _⟩ => ⟨S1x96, .f32⟩
  | .hbm, ⟨71, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x192, .f32⟩
  | .local _ .vmem, ⟨3, _⟩ => ⟨S1x192, .f32⟩
  | .local _ .vmem, ⟨4, _⟩ => ⟨S5000x192, .f32⟩
  | .local _ .vmem, ⟨5, _⟩ => ⟨S5000x192, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S1x96, .f32⟩
  | .local _ .vmem, ⟨11, _⟩ => ⟨S5000x96, .f32⟩
  | .local _ .vmem, ⟨12, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S96x96_S96x96_S96x192_d1 : Shape.Concatenates [S96x96, S96x96] S96x192 1
  bcast_S_S96 : S_.BroadcastsInDim S96 (![] : Fin 0 → Fin S96.rank)
  concatenates_S96_S96_S192_d0 : Shape.Concatenates [S96, S96] S192 0
  shapeCasts_S192_S1x192 : S192.ShapeCasts S1x192
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x192_S96x192_0_0 : ∀ a, (![0, 0] : Fin 2 → Nat) a + S96x192.size a ≤ S96x192.size a
  h_S96x192 : 0 < S96x192.numel
  shapeCasts_S96x192_S96x192 : S96x192.ShapeCasts S96x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  slices_S50000x192_S50000x96_0_0 : S50000x192.Slices ![0, 0] S50000x96
  slices_S50000x192_S50000x96_0_96 : S50000x192.Slices ![0, 96] S50000x96
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  dot_S5000x96_S96x192_S5000x192_1_0_0_1_n_n_wf : DotDims.WF S5000x96 S96x192 S5000x192 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x192.size a ≤ S96x192.size a
  hwx0_1 : ∀ i : grid0.Coords, EltTy.bits .f32 = 32 ∨ (Rect.block (s := S96x192) S96x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x192.size a ≤ S50000x192.size a
  hwx0_3 : ∀ i : grid0.Coords, EltTy.bits .f32 = 32 ∨ (Rect.block (s := S50000x192) S5000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)

variable [Facts₀]

def dot_S5000x96_S96x192_S5000x192_1_0_0_1_n_n : DotDims S5000x96 S96x192 S5000x192 where
  lhsContracting := [1]
  rhsContracting := [0]
  lhsNonContracting := [0]
  rhsNonContracting := [1]
  lhsBatch := []
  rhsBatch := []
  wf := dot_S5000x96_S96x192_S5000x192_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S96x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩

abbrev nBuf : Space → Nat
  | .hbm => 87
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x96, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x96, .f32⟩
  | .hbm, ⟨56, _⟩ => ⟨S850000x1, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S50000x96, .f32⟩
  | .hbm, ⟨67, _⟩ => ⟨S1x96, .f32⟩
  | .hbm, ⟨68, _⟩ => ⟨S50000x96, .f32⟩
  | .hbm, ⟨69, _⟩ => ⟨S50000x96, .f32⟩
  | .hbm, ⟨70, _⟩ => ⟨S50000x96, .f32⟩
  | .hbm, ⟨71, _⟩ => ⟨S_, .f32⟩
  | .hbm, ⟨72, _⟩ => ⟨S50000x96, .f32⟩
  | .hbm, ⟨73, _⟩ => ⟨S50000x96, .f32⟩
  | .hbm, ⟨74, _⟩ => ⟨S50000x96, .f32⟩
  | .hbm, ⟨75, _⟩ => ⟨S50000x96, .f32⟩
  | .hbm, ⟨76, _⟩ => ⟨S50000x96, .i1⟩
  | .hbm, ⟨77, _⟩ => ⟨S50000x96, .f32⟩
  | .hbm, ⟨78, _⟩ => ⟨S50000x96, .f32⟩
  | .hbm, ⟨79, _⟩ => ⟨S50000x96, .f32⟩
  | .hbm, ⟨80, _⟩ => ⟨S50000x96, .f32⟩
  | .hbm, ⟨81, _⟩ => ⟨S50000x96, .f32⟩
  | .hbm, ⟨82, _⟩ => ⟨S50000x96, .f32⟩
  | .hbm, ⟨83, _⟩ => ⟨S50000x96, .f32⟩
  | .hbm, ⟨84, _⟩ => ⟨S50000x96, .f32⟩
  | .hbm, ⟨85, _⟩ => ⟨S50000x96, .f32⟩
  | .hbm, ⟨86, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  dot_S50000x96_S96x96_S50000x96_1_0_0_1_n_n_wf : DotDims.WF S50000x96 S96x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf

class Facts : Prop extends Facts₀ where

variable [Facts]
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibPlainDot.lean ====
/- The host's contraction read at coordinates, on the extended reals, for any extents: a `stablehlo.dot_general` with the
   plain dimension numbers (rows × contraction by contraction × columns), at (p, c), is the sum over the contraction
   coordinate k of left(p, k) · right(k, c) — whatever the precision annotation and the summation schedule, which the
   exact sum does not see. And a sum over an index range that is two ranges laid end to end is the sum over the first
   plus the sum over the second, in any commutative additive monoid (no finiteness): what splits a contraction over a
   concatenated operand into the contractions over its pieces. Nothing here depends on a particular program: a printed
   record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainDot

/-- A host contraction with the plain dimension numbers, read at (p, c): the sum over the one contraction coordinate
    of the left operand's row p against the right operand's column c. -/
theorem plain_dotGeneral_apply {M K N : ℕ} {φ₁ φ₂ : FTy} (prec : Option ContractPrecision) (sched : HostSchedule)
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A sum over `Fin (a + b)` is the sum over the first `a` indices plus the sum over the last `b`, the latter
    numbered from `a`. -/
theorem sum_two_ranges {β : Type*} [AddCommMonoid β] (a b : ℕ) (f : Fin (a + b) → β) :
    ∑ k : Fin (a + b), f k = ∑ k : Fin a, f (Fin.castAdd b k) + ∑ k : Fin b, f (Fin.natAdd a k) :=
  Fin.sum_univ_add f

end Cert.Lib.PlainDot

end
-- ==== Proof.LibBlockProduct.lean ====
/- The product of two matrices over the extended reals as ONE function of the two arrays, for any extents, and three
   readings of it: a `tpu.matmul` with the plain dimension numbers into the zero accumulator IS the product; the host's
   `dot_general` with the plain dimension numbers IS the product, whatever its precision annotation; and a block of whole
   rows of the product is the product of that block of rows of the left factor with the whole right factor (each entry
   of a product depends on one row of the left factor only), stated for any three re-indexings that move a row block
   to its place. No finiteness is used: every statement is an equality of the same finite sum of the same products. -/
import Idealize.ShloMosaic.PureOps.Ideal
import Idealize.ShloMosaic.PureOps.Ideal.Laws
import Idealize.ShloMosaic.Lib.ValueIdx
import proofs.«167006_j84301618086372_1_alg».proof.Proof.LibPlainMatmul
import proofs.«167006_j84301618086372_1_alg».proof.Proof.LibPlainDot

noncomputable section

open scoped BigOperators

open Idealize.ShloMosaic Idealize.ShloMosaic.ValueIdx

namespace Cert.Lib.BlockProduct

/-- The product of an M×K array and a K×N array: entry (p, q) is the sum over k of left(p, k) · right(k, q). -/
def prod {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

/-- The product read at coordinates. -/
theorem prod_apply {M K N : ℕ} (x : (⟨2, ![M, K]⟩ : Shape).Idx → EReal) (w : (⟨2, ![K, N]⟩ : Shape).Idx → EReal)
    (p : Fin M) (q : Fin N) : prod x w (ix2 p q) = ∑ k : Fin K, x (ix2 p k) * w (ix2 k q) := rfl

/-- A matrix unit's product into the zero accumulator is the product. -/
theorem matmul_eq_prod {M K N : ℕ} {φ₁ φ₂ : FTy} (l : FVec Ideal ⟨2, ![M, K]⟩ φ₁) (r : FVec Ideal ⟨2, ![K, N]⟩ φ₂) :
    FloatOps.matmul (DotDims.plain M K N) none l r (constant (F := Ideal) ⟨2, ![M, N]⟩ .f32 0x00000000#32) = prod l r := by
  funext i
  obtain ⟨p, q, rfl⟩ : ∃ (p : Fin M) (q : Fin N), i = ix2 p q := ⟨i 0, i 1, eq_ix2 i⟩
  rw [prod_apply]
  exact Cert.Lib.PlainMatmul.plain_matmul_zero_apply l r p q

/-- The host's contraction is the product. -/
theorem dotGeneral_eq_prod {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  rw [prod_apply]
  exact Cert.Lib.PlainDot.plain_dotGeneral_apply prec sched l r p q

/-- A block of R whole rows of a product, starting at row `b`, is the product of those rows of the left factor with the
    right factor: `e0` places a row-block index of the left factor at rows `b …`, `e2` does the same for the product, and
    `e1` leaves the right factor's indices where they are. -/
theorem prod_rowBlock {M K N R : ℕ} (A : (⟨2, ![M, K]⟩ : Shape).Idx → EReal) (B : (⟨2, ![K, N]⟩ : Shape).Idx → EReal)
    (e0 : (⟨2, ![R, K]⟩ : Shape).Idx → (⟨2, ![M, K]⟩ : Shape).Idx) (e1 : (⟨2, ![K, N]⟩ : Shape).Idx → (⟨2, ![K, N]⟩ : Shape).Idx)
    (e2 : (⟨2, ![R, N]⟩ : Shape).Idx → (⟨2, ![M, N]⟩ : Shape).Idx) (b : ℕ)
    (h0 : ∀ z, (e0 z 0).val = b + (z 0).val ∧ (e0 z 1).val = (z 1).val)
    (h1 : ∀ z, (e1 z 0).val = (z 0).val ∧ (e1 z 1).val = (z 1).val)
    (h2 : ∀ z, (e2 z 0).val = b + (z 0).val ∧ (e2 z 1).val = (z 1).val)
    (y : (⟨2, ![R, N]⟩ : Shape).Idx) :
    prod (fun z => A (e0 z)) (fun z => B (e1 z)) y = prod A B (e2 y) := by
  unfold prod
  refine Finset.sum_congr rfl fun k _ => ?_
  have ea : e0 (ix2 (⟨(y 0).val, idx2_lt0 y⟩ : Fin R) k) = ix2 (⟨(e2 y 0).val, idx2_lt0 (e2 y)⟩ : Fin M) k :=
    funext fun a => Fin.ext (by
      match a with
      | ⟨0, _⟩ => exact ((h0 _).1).trans ((h2 y).1).symm
      | ⟨1, _⟩ => exact (h0 _).2)
  have eb : e1 (ix2 k (⟨(y 1).val, idx2_lt1 y⟩ : Fin N)) = ix2 k (⟨(e2 y 1).val, idx2_lt1 (e2 y)⟩ : Fin N) :=
    funext fun a => Fin.ext (by
      match a with
      | ⟨0, _⟩ => exact (h1 _).1
      | ⟨1, _⟩ => exact ((h1 _).2).trans ((h2 y).2).symm)
  show A (e0 _) * B (e1 _) = _
  rw [ea, eb]

end Cert.Lib.BlockProduct

end
-- ==== Proof.Spec.lean ====
/-
  The mathematics both programs compute, as functions of whole arrays over the extended reals.

  A graph-convolution layer with a skip path on N = 50000 nodes with 96 features and E = 800000 edges:
    out = mish ((agg (x·W_gcn) + b_gcn) + (x·W_lin + b_lin)),      mish s = s · tanh (softplus s),
  where `agg h` adds a self-loop to every node, counts each node's incoming edges (`deg`), scales every edge's
  message h[src] by deg[src]^(-1/2) · deg[dst]^(-1/2) and sums the messages arriving at each node.

  `agg` is ONE function of the feature array h and of the edge list, used unopened: the two programs apply it to
  feature arrays that are shown equal. `dense` is the product of the node features with the two weight matrices
  laid side by side, plus a bias row; `epilogue` is the bias add, the skip add and mish, entry by entry.
-/
import proofs.«167006_j84301618086372_1_alg».proof.KernelIdeal
import Idealize.ShloMosaic.PureOps.Ideal
import Idealize.ShloMosaic.PureOps.Ideal.Laws
import Idealize.ShloMosaic.Lib.ValueIdx
import proofs.«167006_j84301618086372_1_alg».proof.Proof.LibBlockProduct

noncomputable section

namespace Cert.Gcn

open Idealize.ShloMosaic Idealize.ShloMosaic.ValueIdx Cert.KernelIdeal Cert.KernelIdeal.Facts₀

variable [Cert.KernelIdeal.Facts]

/-! ## The sparse aggregation -/

/-- The source node of every edge, then every node once (the self-loops). -/
def src (e : IVec S2x800000 32) : IVec S850000 32 :=
  concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0

/-- The target node of every edge, then every node once (the self-loops). -/
def dst (e : IVec S2x800000 32) : IVec S850000 32 :=
  concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

/-- A list of node numbers as a column of start indices. -/
def col {α : Type} (v : S850000.Idx → α) : S850000x1.Idx → α :=
  broadcastInDim S850000x1 ![0] bcast_S850000_S850000x1_0 v

/-- A negative node number counted from the end, as array indexing reads it. -/
def wrap (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- How many edges, self-loop included, arrive at each node. -/
def deg (e : IVec S2x800000 32) : FVec Ideal S50000 .f32 :=
  Host.scatterAdd scatter_S50000_S850000x1_S850000_n_0_0_1 (broadcastInDim S50000 ![] bcast_S_S50000 (constant S_ .f32 0x00000000#32)) (col (dst e)) (broadcastInDim S850000 ![] bcast_S_S850000 (constant S_ .f32 0x3F800000#32))

/-- deg^(-1/2) where the degree is positive, zero elsewhere. -/
def dinv (e : IVec S2x800000 32) : FVec Ideal S50000 .f32 :=
  select (cmpf (F := Ideal) .ogt (deg e) (broadcastInDim S50000 ![] bcast_S_S50000 (constant S_ .f32 0x00000000#32))) (Host.rsqrt (deg e)) (broadcastInDim S50000 ![] bcast_S_S50000 (id (constant S_ .f32 0x00000000#32)))

/-- Every edge's weight: dinv at its source times dinv at its target. -/
def norm (e : IVec S2x800000 32) : FVec Ideal S850000 .f32 :=
  mulf (Host.gather gather_S50000_S850000x1_S850000_n_0_n_n_0_1_1 (dinv e) (col (wrap (src e)))) (Host.gather gather_S50000_S850000x1_S850000_n_0_n_n_0_1_1 (dinv e) (col (wrap (dst e))))

/-- The aggregation: each node receives the sum, over the edges arriving at it, of the source's feature row times the
    edge's weight. -/
def agg (h : FVec Ideal S50000x96 .f32) (e : IVec S2x800000 32) : FVec Ideal S50000x96 .f32 :=
  Host.scatterAdd scatter_S50000x96_S850000x1_S850000x96_1_0_0_1 (broadcastInDim S50000x96 ![] bcast_S_S50000x96 (constant S_ .f32 0x00000000#32)) (col (dst e))
    (mulf (Host.gather gather_S50000x96_S850000x1_S850000x96_1_0_n_n_0_1_196 h (col (wrap (src e)))) (broadcastInDim S850000x96 ![0, 1] bcast_S850000x1_S850000x96_0_1 (col (norm e))))

/-! ## mish, entry by entry -/

/-- s · tanh (softplus s) with softplus s = max s 0 + log (1 + exp (−|s|)), in the spelling of a numerically careful
    log-add-exp: the guard compares s − 0 with itself (never different on the extended reals), and −|s| is 0 − |s − 0|. -/
def mish {s : Shape} (v : FVec Ideal s .f32) : FVec Ideal s .f32 :=
  mulf v (tanh (select (cmpf (F := Ideal) .one (subf v (broadcast s (Scalar.ofBits .f32 0x00000000#32))) (subf v (broadcast s (Scalar.ofBits .f32 0x00000000#32))))
    (addf v (broadcast s (Scalar.ofBits .f32 0x00000000#32)))
    (addf (maximumf v (broadcast s (Scalar.ofBits .f32 0x00000000#32)))
      (log1p (exp (subf (broadcast s (Scalar.ofBits .f32 0x00000000#32)) (absf (subf v (broadcast s (Scalar.ofBits .f32 0x00000000#32))))))))))

/-- mish acts entry by entry: its value at an index depends only on the operand's value there. -/
theorem mish_congr {s s' : Shape} (v : FVec Ideal s .f32) (v' : FVec Ideal s' .f32) (j : s.Idx) (j' : s'.Idx) (h : v j = v' j') :
    mish v j = mish v' j' :=
  (show mish v j = mish (fun _ : S_.Idx => v j) ix0 from rfl).trans
    ((congrArg (fun x : Ideal .f32 => mish (fun _ : S_.Idx => x) ix0) h).trans
      (show mish (fun _ : S_.Idx => v' j') ix0 = mish v' j' from rfl))

/-- A row of 96 numbers under every one of the rows of an N × 96 array. -/
def rows {N C : ℕ} (b : FVec Ideal ⟨2, ![1, C]⟩ .f32) : FVec Ideal ⟨2, ![N, C]⟩ .f32 :=
  fun i => b (ix2 (0 : Fin 1) (⟨(i 1).val, idx2_lt1 i⟩ : Fin C))

/-- The last stage: (a + bias row) + skip, then mish. -/
def epilogue (a k : FVec Ideal S50000x96 .f32) (b : FVec Ideal S1x96 .f32) : FVec Ideal S50000x96 .f32 :=
  mish (addf (addf a (rows b)) k)

/-! ## The dense stage -/

/-- The node features times a weight matrix, plus a bias row. -/
def dense {N K C : ℕ} (x : FVec Ideal ⟨2, ![N, K]⟩ .f32) (w : FVec Ideal ⟨2, ![K, C]⟩ .f32) (b : FVec Ideal ⟨2, ![1, C]⟩ .f32) :
    FVec Ideal ⟨2, ![N, C]⟩ .f32 :=
  addf (Cert.Lib.BlockProduct.prod x w) (rows b)

end Cert.Gcn

end
-- ==== Proof.Region0.lean ====
/-
  The first kernel (the product with the two weight matrices side by side, plus a bias row) over its grid of ten row
  blocks: what the array it writes holds afterwards.

  Point t reads rows 5000·t … 5000·t + 4999 of the node features, the whole 96 × 192 weight array and the whole bias row,
  and writes the same rows of the 50000 × 192 result. A block of whole rows of a product is the product of those rows of
  the left factor with the right factor, so the block a point writes is that block of ONE whole-array function
  (`dense`), and the ten blocks tile the 50000 rows. The conversions to a narrower float format are the identity on
  the extended reals, and the matrix unit's product into the zero accumulator is the plain sum over the 96 products.
-/
import proofs.«167006_j84301618086372_1_alg».proof.Proof.Gen.KernelIdeal.Frame
import proofs.«167006_j84301618086372_1_alg».proof.Proof.Spec
import Idealize.ShloMosaic.Lib.Pipeline.Value
import Idealize.ShloMosaic.Lib.ValueLayout

set_option maxRecDepth 16384

noncomputable section

namespace Cert.Gcn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.Gcn Cert.Lib.BlockProduct

variable (V : (c : Dev nD) → (b : Ref sig .tc) → Buf (Elt Ideal) ((c : Thread nD τ).loc b))

theorem hz : (![0, 0] : Fin 2 → Nat) = fun _ => 0 := funext fun a => by fin_cases a <;> rfl

/-- The kernel's product contracts the left factor's columns against the right factor's rows: the plain matrix product. -/
theorem dot_plain : dot_S5000x96_S96x192_S5000x192_1_0_0_1_n_n = DotDims.plain 5000 96 192 := rfl

/-- The body's arithmetic is the dense stage of its three loaded blocks. -/
theorem pay_eq (x0 : Vec Ideal S5000x96 .f32) (x1 : Vec Ideal S96x192 .f32) (x2 : Vec Ideal S1x192 .f32) :
    k0_pay1 x0 x1 x2 = dense x0 x1 x2 := by
  have e : broadcastTo S5000x192 x2 Facts₀.broadcasts_S1x192_S5000x192 = rows x2 := by
    funext i
    obtain ⟨p, q, rfl⟩ : ∃ (p : Fin 5000) (q : Fin 192), i = ix2 p q := ⟨i 0, i 1, eq_ix2 i⟩
    exact broadcastTo_1b_ab_apply x2 _ p q
  unfold k0_pay1
  dsimp only
  simp only [shapeCast_self]
  rw [e, dot_plain]
  exact congrArg (fun z => addf z (rows x2)) (matmul_eq_prod x0 x1)

/-- The index maps over the grid: the feature window and the output window move together down the rows, one block of
    5000 per point; the weight and bias windows stay. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's. -/
theorem idx_onto : ∀ q : Fin 10, ∃ t : Fin cfg0.N, win0_3.index t = ![q.val, 0] :=
  (by decide +kernel : ∀ q : Fin 10, ∃ t : Fin grid0.N, win0_3.index t = ![q.val, 0])

/-- What point t writes back is block t of the dense stage of the arrays as the kernel finds them. -/
theorem flushed_eq (c : Dev nD) (t : Fin cfg0.N) :
    (dat0 V c).flushed 3 t = ((cfg0.win 3).blk t).view.read (Elt Ideal) (dense (V c main_arg0) (V c main_v0) (V c main_v3)) := by
  show (cfg0.win 3).cut (grid0.coords t) ((dat0 V c).after 3 t) = _
  rw [after0_3]
  unfold out0_3
  rw [View.canon_unit_zero hz]
  simp only [View.ld_unit_zero (S := S5000x96) hz, View.ld_unit_zero (S := S96x192) hz, View.ld_unit_zero (S := S1x192) hz]
  rw [pay_eq]
  obtain ⟨e0, e1, e2, e3, e4, e5, e6, e7⟩ := idx_facts t
  funext j
  have hj0 : (j 0).val < 5000 := (j 0).isLt
  have hj1 : (j 1).val < 192 := (j 1).isLt
  have h0 : ∀ z : S5000x96.Idx, ((((cfg0.win 0).blk t).view.emb z) 0).val = win0_3.index t (0 : Fin 2) * 5000 + (z 0).val
      ∧ ((((cfg0.win 0).blk t).view.emb z) 1).val = (z 1).val := fun z =>
    ⟨by show win0_0.index t (0 : Fin 2) * 5000 + 1 * (z 0).val = _; omega,
     by show win0_0.index t (1 : Fin 2) * 96 + 1 * (z 1).val = _; omega⟩
  have h1 : ∀ z : S96x192.Idx, ((((cfg0.win 1).blk t).view.emb z) 0).val = (z 0).val
      ∧ ((((cfg0.win 1).blk t).view.emb z) 1).val = (z 1).val := fun z =>
    ⟨by show win0_1.index t (0 : Fin 2) * 96 + 1 * (z 0).val = _; omega,
     by show win0_1.index t (1 : Fin 2) * 192 + 1 * (z 1).val = _; omega⟩
  have h3 : ∀ z : S5000x192.Idx, ((((cfg0.win 3).blk t).view.emb z) 0).val = win0_3.index t (0 : Fin 2) * 5000 + (z 0).val
      ∧ ((((cfg0.win 3).blk t).view.emb z) 1).val = (z 1).val := fun z =>
    ⟨by show win0_3.index t (0 : Fin 2) * 5000 + 1 * (z 0).val = _; omega,
     by show win0_3.index t (1 : Fin 2) * 192 + 1 * (z 1).val = _; omega⟩
  have h2 : ((cfg0.win 2).blk t).view.emb (ix2 (0 : Fin 1) (⟨(j 1).val, idx2_lt1 j⟩ : Fin 192))
      = ix2 (0 : Fin 1) (⟨((((cfg0.win 3).blk t).view.emb j) 1).val, idx2_lt1 _⟩ : Fin 192) := by
    funext a; apply Fin.ext
    match a with
    | ⟨0, _⟩ => show win0_2.index t (0 : Fin 2) * 1 + 1 * 0 = 0; omega
    | ⟨1, _⟩ => show win0_2.index t (1 : Fin 2) * 192 + 1 * (j 1).val = win0_3.index t (1 : Fin 2) * 192 + 1 * (j 1).val; omega
  show prod (fun z => (V c main_arg0 : S50000x96.Idx → EReal) (((cfg0.win 0).blk t).view.emb z)) (fun z => (V c main_v0 : S96x192.Idx → EReal) (((cfg0.win 1).blk t).view.emb z)) j
        + (V c main_v3 : S1x192.Idx → EReal) (((cfg0.win 2).blk t).view.emb (ix2 (0 : Fin 1) (⟨(j 1).val, idx2_lt1 j⟩ : Fin 192)))
      = prod (V c main_arg0 : S50000x96.Idx → EReal) (V c main_v0 : S96x192.Idx → EReal) (((cfg0.win 3).blk t).view.emb j)
        + (V c main_v3 : S1x192.Idx → EReal) (ix2 (0 : Fin 1) (⟨((((cfg0.win 3).blk t).view.emb j) 1).val, idx2_lt1 _⟩ : Fin 192))
  rw [h2, prod_rowBlock (V c main_arg0 : S50000x96.Idx → EReal) (V c main_v0 : S96x192.Idx → EReal) ((cfg0.win 0).blk t).view.emb ((cfg0.win 1).blk t).view.emb
    ((cfg0.win 3).blk t).view.emb (win0_3.index t (0 : Fin 2) * 5000) h0 h1 h3 j]

/-- An index of the array is in point t's block iff each coordinate is in the block's range on its axis. -/
theorem mem_blk (t : Fin cfg0.N) (i : S50000x192.Idx) :
    i ∈ ((cfg0.win 3).blk t).view.set ↔ ∀ a : Fin 2, win0_3.index t a * S5000x192.size a ≤ (i a).val ∧ (i a).val < win0_3.index t a * S5000x192.size a + S5000x192.size a := by
  show i ∈ ((View.whole main_v4).slice (win0_3.rect t)).set ↔ _
  rw [View.set_slice_whole, Rect.mem_set_unit]
  exact Iff.rfl

/-- Row r lies in the block of the point numbered r / 5000. -/
theorem cover (i : S50000x192.Idx) : ∃ t : Fin cfg0.N, (cfg0.win 3).flush t = true ∧ i ∈ ((cfg0.win 3).blk t).view.set := by
  have hi0 : (i 0).val < 50000 := (i 0).isLt
  have hi1 : (i 1).val < 192 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 192 ≤ (i 1).val ∧ (i 1).val < win0_3.index t (1 : Fin 2) * 192 + 192; omega

/-- The array the first kernel writes ends holding the dense stage of the arrays it was given. -/
theorem final (c : Dev nD) :
    (dat0 V c).arrAt 3 cfg0.N = dense (V c main_arg0) (V c main_v0) (V c main_v3) :=
  (dat0 V c).arrAt_eq_of_cover 3 _ (fun t _ => flushed_eq V c t) cover

end Cert.Gcn.Region0

end
-- ==== Proof.Region1.lean ====
/-
  The second kernel (bias add, skip add, mish) over its grid of ten row blocks: what the array it writes holds afterwards.

  Point t of the grid reads rows 5000·t … 5000·t + 4999 of the aggregated features and of the skip features, and the one
  bias row; it writes the same rows of the result. Every entry of the result is a function of the entries at the SAME
  position of the two feature arrays and of the bias at its column, so the block a point writes is that block of one
  whole-array function (`epilogue`), and the ten blocks tile the 50000 rows.
-/
import proofs.«167006_j84301618086372_1_alg».proof.Proof.Gen.KernelIdeal.Frame
import proofs.«167006_j84301618086372_1_alg».proof.Proof.Spec
import Idealize.ShloMosaic.Lib.Pipeline.Value
import Idealize.ShloMosaic.Lib.ValueLayout

set_option maxRecDepth 16384

noncomputable section

namespace Cert.Gcn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀ Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the epilogue of its three loaded blocks: a cast to the same shape changes nothing and the
    broadcast of the bias row puts it under every row. -/
theorem pay_eq (x0 : Vec Ideal S5000x96 .f32) (x2 : Vec Ideal S1x96 .f32) (x6 : Vec Ideal S5000x96 .f32) :
    k1_pay1 x0 x2 x6 = mish (addf (addf x0 (rows x2)) x6) := by
  have e : broadcastTo S5000x96 x2 Facts₀.broadcasts_S1x96_S5000x96 = rows x2 := by
    funext i
    obtain ⟨p, q, rfl⟩ : ∃ (p : Fin 5000) (q : Fin 96), i = ix2 p q := ⟨i 0, i 1, eq_ix2 i⟩
    exact broadcastTo_1b_ab_apply x2 _ p q
  unfold k1_pay1
  dsimp only
  simp only [shapeCast_self]
  rw [e]
  rfl

/-- The index maps over the grid: the two feature windows and the output window move together down the rows, one block
    of 5000 per point; the bias window stays. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some point's. -/
theorem idx_onto : ∀ q : Fin 10, ∃ t : Fin cfg1.N, win1_3.index t = ![q.val, 0] :=
  (by decide +kernel : ∀ q : Fin 10, ∃ t : Fin grid1.N, win1_3.index t = ![q.val, 0])

/-- What point t writes back is block t of the epilogue of the arrays as the kernel finds them. -/
theorem flushed_eq (c : Dev nD) (t : Fin cfg1.N) :
    (dat1 V c).flushed 3 t = ((cfg1.win 3).blk t).view.read (Elt Ideal) (epilogue (V c main_v49) (V c main_v6) (V c main_v50)) := by
  show (cfg1.win 3).cut (grid1.coords t) ((dat1 V c).after 3 t) = _
  rw [after1_3]
  unfold out1_3
  rw [View.canon_unit_zero hz]
  simp only [View.ld_unit_zero (S := S5000x96) hz, View.ld_unit_zero (S := S1x96) hz]
  rw [pay_eq]
  obtain ⟨e0, e1, e2, e3, e4, e5, e6, e7⟩ := idx_facts t
  funext j
  refine mish_congr _ _ _ _ ?_
  have hj0 : (j 0).val < 5000 := (j 0).isLt
  have hj1 : (j 1).val < 96 := (j 1).isLt
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 96 + 1 * (j 1).val = win1_3.index t (1 : Fin 2) * 96 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 96 + 1 * (j 1).val = win1_3.index t (1 : Fin 2) * 96 + 1 * (j 1).val; omega
  have h2 : ((cfg1.win 2).blk t).view.emb (ix2 (0 : Fin 1) (⟨(j 1).val, idx2_lt1 j⟩ : Fin 96))
      = ix2 (0 : Fin 1) (⟨((((cfg1.win 3).blk t).view.emb j) 1).val, idx2_lt1 _⟩ : Fin 96) := by
    funext a; apply Fin.ext
    match a with
    | ⟨0, _⟩ => show win1_2.index t (0 : Fin 2) * 1 + 1 * 0 = 0; omega
    | ⟨1, _⟩ => show win1_2.index t (1 : Fin 2) * 96 + 1 * (j 1).val = win1_3.index t (1 : Fin 2) * 96 + 1 * (j 1).val; omega
  have key : ∀ (A K : S50000x96.Idx → EReal) (B : S1x96.Idx → EReal),
      (A (((cfg1.win 0).blk t).view.emb j)
        + B (((cfg1.win 2).blk t).view.emb (ix2 (0 : Fin 1) (⟨(j 1).val, idx2_lt1 j⟩ : Fin 96))))
        + K (((cfg1.win 1).blk t).view.emb j)
      = (A (((cfg1.win 3).blk t).view.emb j)
        + B (ix2 (0 : Fin 1) (⟨((((cfg1.win 3).blk t).view.emb j) 1).val, idx2_lt1 _⟩ : Fin 96)))
        + K (((cfg1.win 3).blk t).view.emb j) := fun A K B => by rw [h0, h1, h2]
  exact key (V c main_v49) (V c main_v6) (V c main_v50)

/-- An index of the array is in point t's block iff each coordinate is in the block's range on its axis. -/
theorem mem_blk (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v51).slice (win1_3.rect t)).set ↔ _
  rw [View.set_slice_whole, Rect.mem_set_unit]
  exact Iff.rfl

/-- Row r lies in the block of the point numbered r / 5000. -/
theorem cover (i : S50000x96.Idx) : ∃ t : Fin cfg1.N, (cfg1.win 3).flush t = true ∧ i ∈ ((cfg1.win 3).blk t).view.set := by
  have hi0 : (i 0).val < 50000 := (i 0).isLt
  have hi1 : (i 1).val < 96 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 96 ≤ (i 1).val ∧ (i 1).val < win1_3.index t (1 : Fin 2) * 96 + 96; omega

/-- The array the second kernel writes ends holding the epilogue of the arrays it was given. -/
theorem final (c : Dev nD) :
    (dat1 V c).arrAt 3 cfg1.N = epilogue (V c main_v49) (V c main_v6) (V c main_v50) :=
  (dat1 V c).arrAt_eq_of_cover 3 _ (fun t _ => flushed_eq V c t) cover

end Cert.Gcn.Region1

end
-- ==== Proof.Values.lean ====
/-
  The two programs' results as whole-array functions of the six arguments.

  The kernel program lays the two weight matrices side by side (96 × 192) and a zero row beside the skip bias (1 × 192),
  runs the dense stage once, cuts the 192 columns into the graph half (columns 0 … 95) and the skip half
  (columns 96 … 191), aggregates the graph half over the edges and finishes with the epilogue.
  The reference multiplies by each weight matrix separately, aggregates, adds each bias under every row, adds the two
  paths and applies mish in the host's spelling.
-/
import proofs.«167006_j84301618086372_1_alg».proof.Proof.Spec
import proofs.«167006_j84301618086372_1_alg».proof.ReferenceIdeal

noncomputable section

namespace Cert.Gcn

open Idealize.ShloMosaic Idealize.ShloMosaic.ValueIdx

variable [Cert.KernelIdeal.Facts] [Cert.ReferenceIdeal.Facts]

section Kernel
open Cert.KernelIdeal Cert.KernelIdeal.Facts₀

/-- The two weight matrices side by side. -/
def catW (wg wl : FVec Ideal S96x96 .f32) : FVec Ideal S96x192 .f32 :=
  concatenate S96x192 1 [⟨S96x96, wg⟩, ⟨S96x96, wl⟩] concatenates_S96x96_S96x96_S96x192_d1

/-- A row of 96 zeros followed by the skip bias. -/
def catB (bl : FVec Ideal S96 .f32) : FVec Ideal S1x192 .f32 :=
  shapeCast S1x192 (concatenate S192 0 [⟨S96, broadcastInDim S96 ![] bcast_S_S96 (constant S_ .f32 0x00000000#32)⟩, ⟨S96, bl⟩] concatenates_S96_S96_S192_d0) shapeCasts_S192_S1x192

/-- What the kernel program's result array holds. -/
def kernelValue (x : FVec Ideal S50000x96 .f32) (e : IVec S2x800000 32) (wg : FVec Ideal S96x96 .f32) (bg : FVec Ideal S96 .f32)
    (wl : FVec Ideal S96x96 .f32) (bl : FVec Ideal S96 .f32) : FVec Ideal S50000x96 .f32 :=
  epilogue (agg (extractStridedSlice S50000x96 ![0, 0] (dense x (catW wg wl) (catB bl)) slices_S50000x192_S50000x96_0_0) e)
    (extractStridedSlice S50000x96 ![0, 96] (dense x (catW wg wl) (catB bl)) slices_S50000x192_S50000x96_0_96)
    (shapeCast S1x96 bg shapeCasts_S96_S1x96)

end Kernel

section Reference
open Cert.ReferenceIdeal Cert.ReferenceIdeal.Facts₀

/-- mish in the host's spelling: the guard is "s − 0 differs from itself", and −|s − 0| is a negation. -/
def hostMish (v : FVec Ideal S50000x96 .f32) : FVec Ideal S50000x96 .f32 :=
  mulf v (Host.tanh (select (cmpf (F := Ideal) .une (subf v (broadcastInDim S50000x96 ![] bcast_S_S50000x96 (constant S_ .f32 0x00000000#32))) (subf v (broadcastInDim S50000x96 ![] bcast_S_S50000x96 (constant S_ .f32 0x00000000#32))))
    (addf v (broadcastInDim S50000x96 ![] bcast_S_S50000x96 (constant S_ .f32 0x00000000#32)))
    (addf (maximumf v (broadcastInDim S50000x96 ![] bcast_S_S50000x96 (constant S_ .f32 0x00000000#32)))
      (Host.log1p (Host.exp (Host.negf (Host.absf (subf v (broadcastInDim S50000x96 ![] bcast_S_S50000x96 (constant S_ .f32 0x00000000#32))))))))))

/-- A bias of 96 numbers under every one of the 50000 rows. -/
def biasRows (b : FVec Ideal S96 .f32) : FVec Ideal S50000x96 .f32 :=
  broadcastInDim S50000x96 ![0, 1] bcast_S1x96_S50000x96_0_1 (broadcastInDim S1x96 ![1] bcast_S96_S1x96_1 b)

/-- What the reference program's result array holds. -/
def refValue (x : FVec Ideal S50000x96 .f32) (e : IVec S2x800000 32) (wg : FVec Ideal S96x96 .f32) (bg : FVec Ideal S96 .f32)
    (wl : FVec Ideal S96x96 .f32) (bl : FVec Ideal S96 .f32) : FVec Ideal S50000x96 .f32 :=
  hostMish (addf (addf (agg (Host.dotGeneral dot_S50000x96_S96x96_S50000x96_1_0_0_1_n_n none x wg) e) (biasRows bg))
    (addf (Host.dotGeneral dot_S50000x96_S96x96_S50000x96_1_0_0_1_n_n none x wl) (biasRows bl)))

end Reference

end Cert.Gcn

end
-- ==== Proof.KernelRun.lean ====
/-
  The kernel program's run read as a value: its result array, after every weakly fair execution, holds `kernelValue` of
  the six argument arrays.

  The program is five host operations (laying the weights and the biases side by side), the first kernel, fifty-nine host
  operations (cutting the product into its two halves and the whole sparse aggregation), and the second kernel. Its
  buffers at each boundary are a fold through these segments; the result array at the end is what the second kernel's
  ten write-backs leave, which is the epilogue of the arrays it was given; those are the host operations' values of the
  first kernel's array, which is the dense stage of the arrays IT was given; and those are the first five host
  operations' values of the arguments.
-/
import proofs.«167006_j84301618086372_1_alg».proof.Proof.Gen.KernelIdeal.Frame
import proofs.«167006_j84301618086372_1_alg».proof.Proof.Region0
import proofs.«167006_j84301618086372_1_alg».proof.Proof.Region1
import proofs.«167006_j84301618086372_1_alg».proof.Proof.Values
import Idealize.ShloMosaic.Lib.StableHlo.Run

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀ Cert.Gcn
open Idealize.ShloMosaic.StableHlo (reshape_result unary_result binary_result nullary_result ternary_result reshape_result_ne unary_result_ne binary_result_ne nullary_result_ne ternary_result_ne)

/-! ## The run, with the result array named -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every unscoped buffer at the last boundary's contents: in particular the
    result array at what the second kernel's write-backs leave, and the arguments as launched. -/
theorem run_result : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Run

/-! ## The host operations, read -/

section Host

variable (W : Valuation τ sig (Elt Ideal))

/-- Before the first kernel: the weights side by side, -/
theorem host0_v0 : StableHlo.after hostOps0 W (Proc.devRef .tc main_v0)
    = catW (W (Proc.devRef .tc main_arg2)) (W (Proc.devRef .tc main_arg4)) := by
  simp only [hostOps0]
  after_results_simp
  rfl

/-- the zero row beside the skip bias, -/
theorem host0_v3 : StableHlo.after hostOps0 W (Proc.devRef .tc main_v3) = catB (W (Proc.devRef .tc main_arg5)) := by
  simp only [hostOps0]
  after_results_simp
  rfl

/-- and the node features untouched. -/
theorem host0_arg0 : StableHlo.after hostOps0 W (Proc.devRef .tc main_arg0) = W (Proc.devRef .tc main_arg0) := by
  simp only [hostOps0]
  after_results_simp

/-! ### Between the kernels, one stretch at a time

The fifty-nine host operations between the kernels come in three stretches: the cut of the first kernel's array into its
halves, the edge lists with their self-loops and the degree count (twenty operations); the choice of deg^(-1/2) or zero
(three operations, an outlined `where`); the gathers, the edge weights and the scatter-add (thirty-six operations). -/

/-- The aggregation as a function of the feature array, the two node lists and the per-node factor. -/
def aggCore (h : FVec Ideal S50000x96 .f32) (s d : IVec S850000 32) (dv : FVec Ideal S50000 .f32) : FVec Ideal S50000x96 .f32 :=
  Host.scatterAdd scatter_S50000x96_S850000x1_S850000x96_1_0_0_1 (broadcastInDim S50000x96 ![] Facts₀.bcast_S_S50000x96 (constant S_ .f32 0x00000000#32)) (col d)
    (mulf (Host.gather gather_S50000x96_S850000x1_S850000x96_1_0_n_n_0_1_196 h (col (wrap s)))
      (broadcastInDim S850000x96 ![0, 1] Facts₀.bcast_S850000x1_S850000x96_0_1
        (col (mulf (Host.gather gather_S50000_S850000x1_S850000_n_0_n_n_0_1_1 dv (col (wrap s))) (Host.gather gather_S50000_S850000x1_S850000_n_0_n_n_0_1_1 dv (col (wrap d)))))))

/-- `agg` is that function of the edge list's sources, targets and normalising factor. -/
theorem agg_core (h : FVec Ideal S50000x96 .f32) (e : IVec S2x800000 32) : agg h e = aggCore h (src e) (dst e) (dinv e) := rfl

/-- First stretch: the graph half, -/
theorem a_v5 : StableHlo.after hostOps1 W (Proc.devRef .tc main_v5)
    = extractStridedSlice S50000x96 ![0, 0] (W (Proc.devRef .tc main_v4)) Facts₀.slices_S50000x192_S50000x96_0_0 := by
  simp only [hostOps1]
  after_results_simp
  try rfl

/-- the sources with the self-loops, -/
theorem a_v10 : StableHlo.after hostOps1 W (Proc.devRef .tc main_v10) = src (W (Proc.devRef .tc main_arg1)) := by
  simp only [hostOps1]
  after_results_simp
  repeat (first
    | rw [reshape_result] | rw [unary_result] | rw [binary_result] | rw [nullary_result] | rw [ternary_result]
    | (rw [reshape_result_ne]; rotate_left; decide)
    | (rw [unary_result_ne]; rotate_left; decide)
    | (rw [binary_result_ne]; rotate_left; decide)
    | (rw [nullary_result_ne]; rotate_left; decide)
    | (rw [ternary_result_ne]; rotate_left; decide))
  rfl

/-- the targets with the self-loops, -/
theorem a_v13 : StableHlo.after hostOps1 W (Proc.devRef .tc main_v13) = dst (W (Proc.devRef .tc main_arg1)) := by
  simp only [hostOps1]
  after_results_simp
  repeat (first
    | rw [reshape_result] | rw [unary_result] | rw [binary_result] | rw [nullary_result] | rw [ternary_result]
    | (rw [reshape_result_ne]; rotate_left; decide)
    | (rw [unary_result_ne]; rotate_left; decide)
    | (rw [binary_result_ne]; rotate_left; decide)
    | (rw [nullary_result_ne]; rotate_left; decide)
    | (rw [ternary_result_ne]; rotate_left; decide))
  rfl

/-- where the degree is positive, -/
theorem a_v19 : StableHlo.after hostOps1 W (Proc.devRef .tc main_v19)
    = cmpf (F := Ideal) .ogt (deg (W (Proc.devRef .tc main_arg1))) (broadcastInDim S50000 ![] Facts₀.bcast_S_S50000 (constant S_ .f32 0x00000000#32)) := by
  simp only [hostOps1]
  after_results_simp
  repeat (first
    | rw [reshape_result] | rw [unary_result] | rw [binary_result] | rw [nullary_result] | rw [ternary_result]
    | (rw [reshape_result_ne]; rotate_left; decide)
    | (rw [unary_result_ne]; rotate_left; decide)
    | (rw [binary_result_ne]; rotate_left; decide)
    | (rw [nullary_result_ne]; rotate_left; decide)
    | (rw [ternary_result_ne]; rotate_left; decide))
  rfl

/-- the degree's inverse square root, -/
theorem a_v20 : StableHlo.after hostOps1 W (Proc.devRef .tc main_v20) = Host.rsqrt (deg (W (Proc.devRef .tc main_arg1))) := by
  simp only [hostOps1]
  after_results_simp
  repeat (first
    | rw [reshape_result] | rw [unary_result] | rw [binary_result] | rw [nullary_result] | rw [ternary_result]
    | (rw [reshape_result_ne]; rotate_left; decide)
    | (rw [unary_result_ne]; rotate_left; decide)
    | (rw [binary_result_ne]; rotate_left; decide)
    | (rw [nullary_result_ne]; rotate_left; decide)
    | (rw [ternary_result_ne]; rotate_left; decide))
  rfl

/-- and a zero. -/
theorem a_cst3 : StableHlo.after hostOps1 W (Proc.devRef .tc main_cst_3) = constant (F := Ideal) S_ .f32 0x00000000#32 := by
  simp only [hostOps1]
  after_results_simp
  try rfl

/-- Second stretch: the factor is the inverse square root where the degree is positive and zero elsewhere; -/
theorem b_v21 : StableHlo.after hostOps1_1 W (Proc.devRef .tc main_v21)
    = select (W (Proc.devRef .tc main_v19)) (W (Proc.devRef .tc main_v20)) (broadcastInDim S50000 ![] Facts₀.bcast_S_S50000 (id (W (Proc.devRef .tc main_cst_3)))) := by
  simp only [hostOps1_1]
  after_results_simp
  try rfl

/-- the graph half and the two node lists pass through. -/
theorem b_v5 : StableHlo.after hostOps1_1 W (Proc.devRef .tc main_v5) = W (Proc.devRef .tc main_v5) := by
  simp only [hostOps1_1]
  after_results_simp

theorem b_v10 : StableHlo.after hostOps1_1 W (Proc.devRef .tc main_v10) = W (Proc.devRef .tc main_v10) := by
  simp only [hostOps1_1]
  after_results_simp

theorem b_v13 : StableHlo.after hostOps1_1 W (Proc.devRef .tc main_v13) = W (Proc.devRef .tc main_v13) := by
  simp only [hostOps1_1]
  after_results_simp

/-- Third stretch: the aggregation of what the first two stretches left. -/
theorem c_v49 : StableHlo.after hostOps1_2 W (Proc.devRef .tc main_v49)
    = aggCore (W (Proc.devRef .tc main_v5)) (W (Proc.devRef .tc main_v10)) (W (Proc.devRef .tc main_v13)) (W (Proc.devRef .tc main_v21)) := by
  simp only [hostOps1_2]
  after_results_simp
  rfl

/-- Between the kernels: the aggregation of the graph half of the first kernel's array over the edges, -/
theorem host1_v49 : StableHlo.after hostOps1_2 (StableHlo.after hostOps1_1 (StableHlo.after hostOps1 W)) (Proc.devRef .tc main_v49)
    = agg (extractStridedSlice S50000x96 ![0, 0] (W (Proc.devRef .tc main_v4)) Facts₀.slices_S50000x192_S50000x96_0_0) (W (Proc.devRef .tc main_arg1)) := by
  rw [c_v49, b_v5, b_v10, b_v13, b_v21, a_v5, a_v10, a_v13, a_v19, a_v20, a_cst3]
  exact (agg_core _ _).symm

/-- the skip half, -/
theorem host1_v6 : StableHlo.after hostOps1_2 (StableHlo.after hostOps1_1 (StableHlo.after hostOps1 W)) (Proc.devRef .tc main_v6)
    = extractStridedSlice S50000x96 ![0, 96] (W (Proc.devRef .tc main_v4)) Facts₀.slices_S50000x192_S50000x96_0_96 := by
  simp only [hostOps1, hostOps1_1, hostOps1_2]
  after_results_simp
  try rfl

/-- and the graph bias as a row. -/
theorem host1_v50 : StableHlo.after hostOps1_2 (StableHlo.after hostOps1_1 (StableHlo.after hostOps1 W)) (Proc.devRef .tc main_v50)
    = shapeCast S1x96 (W (Proc.devRef .tc main_arg3)) Facts₀.shapeCasts_S96_S1x96 := by
  simp only [hostOps1, hostOps1_1, hostOps1_2]
  after_results_simp
  rfl

/-- The edge list and the graph bias are untouched before the first kernel. -/
theorem host0_arg1 : StableHlo.after hostOps0 W (Proc.devRef .tc main_arg1) = W (Proc.devRef .tc main_arg1) := by
  simp only [hostOps0]
  after_results_simp

theorem host0_arg3 : StableHlo.after hostOps0 W (Proc.devRef .tc main_arg3) = W (Proc.devRef .tc main_arg3) := by
  simp only [hostOps0]
  after_results_simp

end Host

/-! ## The result array -/

section Value

variable (m : (ℓ : Loc nD τ sig) → Buf (Elt Ideal) ℓ) (ρ : Dev nD → PrngReg)

/-- At the first kernel's exit the edge list is as launched: the kernel has no window on it and no host operation before
    it writes it. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := host0_arg1 (W0 m ρ c)
    _ = m ((c : Thread nD τ).loc main_arg1) := rfl

/-- So is the graph bias. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := host0_arg3 (W0 m ρ c)
    _ = m ((c : Thread nD τ).loc main_arg3) := rfl

/-- The first kernel's array at its exit: the dense stage of the node features, the side-by-side weights and biases. -/
theorem W2_main_v4 (c : Dev nD) : W2 m ρ c (Proc.devRef .tc main_v4)
    = dense (N := 50000) (K := 96) (C := 192) (m ((c : Thread nD τ).loc main_arg0))
        (catW (m ((c : Thread nD τ).loc main_arg2)) (m ((c : Thread nD τ).loc main_arg4))) (catB (m ((c : Thread nD τ).loc main_arg5))) := by
  refine (W2_arr m ρ c 3).trans ?_
  refine (Region0.final (V1 m ρ) c).trans ?_
  show dense (N := 50000) (K := 96) (C := 192) (StableHlo.after hostOps0 (W0 m ρ c) (Proc.devRef .tc main_arg0))
      (StableHlo.after hostOps0 (W0 m ρ c) (Proc.devRef .tc main_v0)) (StableHlo.after hostOps0 (W0 m ρ c) (Proc.devRef .tc main_v3)) = _
  rw [host0_arg0, host0_v0, host0_v3]

/-- The result array at the end of the run. -/
theorem W6_result (c : Dev nD) : W6 m ρ c (Proc.devRef .tc main_v51)
    = kernelValue (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_arr m ρ c 3).trans ?_
  refine (Region1.final (V5 m ρ) c).trans ?_
  show epilogue (StableHlo.after hostOps1_2 (StableHlo.after hostOps1_1 (StableHlo.after hostOps1 (W2 m ρ c))) (Proc.devRef .tc main_v49))
      (StableHlo.after hostOps1_2 (StableHlo.after hostOps1_1 (StableHlo.after hostOps1 (W2 m ρ c))) (Proc.devRef .tc main_v6))
      (StableHlo.after hostOps1_2 (StableHlo.after hostOps1_1 (StableHlo.after hostOps1 (W2 m ρ c))) (Proc.devRef .tc main_v50)) = _
  rw [host1_v49, host1_v6, host1_v50, W2_main_v4, W2_main_arg1, W2_main_arg3]
  rfl

/-- Every weakly fair execution of the kernel program terminates with its result array at `kernelValue` of the arguments
    and the arguments as launched. -/
theorem run_value : θ_run defs (onTc (τ := τ) (main (F := Ideal))) ⟨m, fun _ => 0, ρ⟩ (fun r => ∀ c : Dev nD,
      r.2.mem ((c.tc : Thread nD τ).loc main_v51)
        = kernelValue (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W6_result m ρ c), (h c).2⟩) (run_result m ρ)

end Value

end Cert.Gcn.KernelRun

end
-- ==== Proof.RefValueEq.lean ====
/-
  The reference program's run read as a value: its result array, after every weakly fair execution, holds `refValue` of
  the six argument arrays. The run's composed term of the 81 host operations is that function written out, the
  aggregation over the edges included.
-/
import proofs.«167006_j84301618086372_1_alg».proof.Proof.RefRun
import proofs.«167006_j84301618086372_1_alg».proof.Proof.Values

set_option maxRecDepth 16384

noncomputable section

namespace Cert.Gcn.RefValue

open Idealize.ShloMosaic Idealize.ShloMosaic.TcCoe Idealize.SL.Sem
open Cert.ReferenceIdeal Cert.ReferenceIdeal.Gen Cert.Gcn

variable [Cert.KernelIdeal.Facts]

set_option maxHeartbeats 4000000 in
/-- The composed term of the reference's operations is `refValue` of the arguments. -/
theorem result_eq (m : (ℓ : Loc nD τ sig) → Buf (Elt Ideal) ℓ) (c : Dev nD) :
    Cert.ReferenceIdeal.ValueP.res_main_v54 (F := Ideal) m c
      = refValue (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v54
  rfl

end Cert.Gcn.RefValue

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibSoftplusSpellings.lean ====
/-
  softplus in two spellings, equal on the extended reals for every shape.

  jax.nn.softplus s = log-add-exp (s, 0) is computed as
      d = s − 0;   if d differs from itself then s + 0 else max s 0 + log (1 + exp (−|d|)).
  Inside a kernel the comparison is the ordered "not equal" and −|d| is written 0 − |d|; on the host the comparison is the
  unordered "not equal", −|d| is a negation, and exp / log1p are the host's operations. On the extended reals no number
  differs from itself (there is no NaN), so both guards are the same test; the host's exp and log1p are the kernel's
  functions; and −a = 0 − a. Likewise the host's tanh is the kernel's.
-/
import Idealize.ShloMosaic.PureOps.Ideal
import Idealize.ShloMosaic.PureOps.Ideal.Laws
import Idealize.ShloMosaic.Lib.ValueIdx

noncomputable section

namespace Cert.Lib.SoftplusSpellings

open Idealize.ShloMosaic Idealize.ShloMosaic.ValueIdx

/-- softplus as a kernel body spells it, the zero a splatted scalar constant. -/
def kernelSoftplus {s : Shape} (v : FVec Ideal s .f32) : FVec Ideal s .f32 :=
  select (cmpf (F := Ideal) .one (subf v (broadcast s (Scalar.ofBits .f32 0x00000000#32))) (subf v (broadcast s (Scalar.ofBits .f32 0x00000000#32))))
    (addf v (broadcast s (Scalar.ofBits .f32 0x00000000#32)))
    (addf (maximumf v (broadcast s (Scalar.ofBits .f32 0x00000000#32)))
      (log1p (exp (subf (broadcast s (Scalar.ofBits .f32 0x00000000#32)) (absf (subf v (broadcast s (Scalar.ofBits .f32 0x00000000#32))))))))

/-- softplus as the host program spells it, the zero a rank-0 constant broadcast to the shape. -/
def hostSoftplus {s : Shape} (hb : (⟨0, ![]⟩ : Shape).BroadcastsInDim s (![] : Fin 0 → Fin s.rank)) (v : FVec Ideal s .f32) : FVec Ideal s .f32 :=
  select (cmpf (F := Ideal) .une (subf v (broadcastInDim s ![] hb (constant ⟨0, ![]⟩ .f32 0x00000000#32))) (subf v (broadcastInDim s ![] hb (constant ⟨0, ![]⟩ .f32 0x00000000#32))))
    (addf v (broadcastInDim s ![] hb (constant ⟨0, ![]⟩ .f32 0x00000000#32)))
    (addf (maximumf v (broadcastInDim s ![] hb (constant ⟨0, ![]⟩ .f32 0x00000000#32)))
      (Host.log1p (Host.exp (Host.negf (Host.absf (subf v (broadcastInDim s ![] hb (constant ⟨0, ![]⟩ .f32 0x00000000#32))))))))

/-- −|a| is 0 − |a|, entry by entry. -/
theorem neg_abs_eq {s : Shape} (a : FVec Ideal s .f32) :
    Host.negf (Host.absf a) = subf (broadcast s (Scalar.ofBits .f32 0x00000000#32)) (absf a) := by
  funext i
  show -(FloatOps.absf (F := Ideal) (a i)) = Ideal.ofBits .f32 0x00000000#32 - FloatOps.absf (F := Ideal) (a i)
  rw [Ideal.ofBits_zero_f32, zero_sub]

/-- The host's softplus is the kernel's. -/
theorem hostSoftplus_eq {s : Shape} (hb : (⟨0, ![]⟩ : Shape).BroadcastsInDim s (![] : Fin 0 → Fin s.rank)) (v : FVec Ideal s .f32) :
    hostSoftplus hb v = kernelSoftplus v := by
  unfold hostSoftplus kernelSoftplus
  rw [neg_abs_eq]
  rfl

/-- The host's tanh is the kernel's. -/
theorem hostTanh_eq {s : Shape} (v : FVec Ideal s .f32) : Host.tanh v = tanh v := rfl

end Cert.Lib.SoftplusSpellings

end
-- ==== Proof.Bridge.lean ====
/-
  The two programs' values are one function of the arguments.

  Three facts, entry by entry:
  * the graph half of the dense stage is x·W_gcn: column c < 96 of the side-by-side weights is column c of W_gcn, the
    bias row is zero there, and a + 0 = a on the extended reals;
  * the skip half is x·W_lin + b_lin: column 96 + c of the side-by-side weights is column c of W_lin, and the bias row
    holds b_lin there;
  * mish in the host's spelling is mish in the kernel's: the two guards are the same comparison of a number with itself,
    the transcendental functions are the same functions, and −a = 0 − a on the extended reals.
  The aggregation over the edges is applied, unopened, to equal feature arrays.
-/
import proofs.«167006_j84301618086372_1_alg».proof.Proof.Values
import proofs.«167006_j84301618086372_1_alg».proof.Proof.LibBroadcastReads
import proofs.«167006_j84301618086372_1_alg».proof.Proof.LibSoftplusSpellings
import Idealize.ShloMosaic.Lib.Pipeline.Value
import Idealize.ShloMosaic.Lib.ValueLayout

noncomputable section

open scoped BigOperators

namespace Cert.Gcn

open Idealize.ShloMosaic Idealize.ShloMosaic.ValueIdx Cert.Lib.BlockProduct Cert.Lib.BroadcastReads

variable [Cert.KernelIdeal.Facts] [Cert.ReferenceIdeal.Facts]

/-! ## mish -/

/-- The host's mish is the kernel's: each is the operand times tanh of softplus of the operand, and the two spellings of
    softplus (and of tanh) are one function. -/
theorem hostMish_eq (v : FVec Ideal Cert.ReferenceIdeal.S50000x96 .f32) : hostMish v = mish v := by
  show mulf v (Host.tanh (Cert.Lib.SoftplusSpellings.hostSoftplus Cert.ReferenceIdeal.Facts₀.bcast_S_S50000x96 v))
      = mulf v (tanh (Cert.Lib.SoftplusSpellings.kernelSoftplus v))
  rw [Cert.Lib.SoftplusSpellings.hostSoftplus_eq, Cert.Lib.SoftplusSpellings.hostTanh_eq]

section Halves
open Cert.KernelIdeal Cert.KernelIdeal.Facts₀

/-! ## The side-by-side weights and biases, read at coordinates -/

theorem catW_left (wg wl : FVec Ideal S96x96 .f32) (k c : Fin 96) :
    catW wg wl (ix2 k (⟨c.val, by omega⟩ : Fin 192)) = wg (ix2 k c) := by
  unfold catW
  exact concatenate_pair_apply_left (t := S96x192) (s₁ := S96x96) (s₂ := S96x96) (1 : Fin 2) wg wl
    concatenates_S96x96_S96x96_S96x192_d1 (ix2 k (⟨c.val, by omega⟩ : Fin 192)) rfl (ix2 k c) (fun b => by
      match b with
      | ⟨0, _⟩ => rfl
      | ⟨1, _⟩ => rfl)

theorem catW_right (wg wl : FVec Ideal S96x96 .f32) (k c : Fin 96) :
    catW wg wl (ix2 k (⟨96 + c.val, by omega⟩ : Fin 192)) = wl (ix2 k c) := by
  unfold catW
  exact concatenate_pair_apply_right (t := S96x192) (s₁ := S96x96) (s₂ := S96x96) (1 : Fin 2) wg wl
    concatenates_S96x96_S96x96_S96x192_d1 (ix2 k (⟨96 + c.val, by omega⟩ : Fin 192)) rfl rfl (ix2 k c) (fun b hb => by
      match b with
      | ⟨0, _⟩ => rfl
      | ⟨1, _⟩ => exact absurd rfl hb) (by show c.val + 96 = 96 + c.val; omega)

theorem catB_left (bl : FVec Ideal S96 .f32) (c : Fin 96) :
    catB bl (ix2 (0 : Fin 1) (⟨c.val, by omega⟩ : Fin 192)) = 0 := by
  unfold catB
  refine (shapeCast_a_1a_apply _ _ (0 : Fin 1) (⟨c.val, by omega⟩ : Fin 192)).trans ?_
  refine (concatenate_pair_apply_left (t := S192) (s₁ := S96) (s₂ := S96) (0 : Fin 1)
    (broadcastInDim S96 ![] bcast_S_S96 (constant (F := Ideal) S_ .f32 0x00000000#32)) bl
    concatenates_S96_S96_S192_d0 (ix1 (⟨c.val, by omega⟩ : Fin 192)) rfl (ix1 c) (fun b => by
      match b with
      | ⟨0, _⟩ => rfl)).trans ?_
  exact Ideal.ofBits_zero_f32

theorem catB_right (bl : FVec Ideal S96 .f32) (c : Fin 96) :
    catB bl (ix2 (0 : Fin 1) (⟨96 + c.val, by omega⟩ : Fin 192)) = bl (ix1 c) := by
  unfold catB
  refine (shapeCast_a_1a_apply _ _ (0 : Fin 1) (⟨96 + c.val, by omega⟩ : Fin 192)).trans ?_
  exact concatenate_pair_apply_right (t := S192) (s₁ := S96) (s₂ := S96) (0 : Fin 1)
    (broadcastInDim S96 ![] bcast_S_S96 (constant (F := Ideal) S_ .f32 0x00000000#32)) bl
    concatenates_S96_S96_S192_d0 (ix1 (⟨96 + c.val, by omega⟩ : Fin 192)) rfl rfl (ix1 c) (fun b hb => by
      match b with
      | ⟨0, _⟩ => exact absurd rfl hb) (by show c.val + 96 = 96 + c.val; omega)

/-- The reference's product contracts the left factor's columns against the right factor's rows: the plain matrix product. -/
theorem refDot_plain : Cert.ReferenceIdeal.dot_S50000x96_S96x96_S50000x96_1_0_0_1_n_n = DotDims.plain 50000 96 96 := rfl

/-- A bias under every row, read at (r, c): the bias at c. -/
theorem biasRows_apply (b : FVec Ideal Cert.ReferenceIdeal.S96 .f32) (r : Fin 50000) (c : Fin 96) :
    biasRows b (ix2 r c) = b (ix1 c) :=
  (broadcastInDim_1b_ab_apply _ _ r c).trans (broadcastInDim_b_1b_apply b _ (0 : Fin 1) c)

/-! ## The two halves of the dense stage -/

/-- Columns 0 … 95 of the dense stage: the product with W_gcn. -/
theorem graph_half (x : FVec Ideal S50000x96 .f32) (wg wl : FVec Ideal S96x96 .f32) (bl : FVec Ideal S96 .f32) :
    extractStridedSlice S50000x96 ![0, 0] (dense x (catW wg wl) (catB bl)) slices_S50000x192_S50000x96_0_0
      = Host.dotGeneral Cert.ReferenceIdeal.dot_S50000x96_S96x96_S50000x96_1_0_0_1_n_n none x wg := by
  funext i
  obtain ⟨r, c, rfl⟩ : ∃ (r : Fin 50000) (c : Fin 96), i = ix2 r c := ⟨i 0, i 1, eq_ix2 i⟩
  refine (slice2_axis1_apply 0 _ _ r c (⟨c.val, by omega⟩ : Fin 192) (Nat.zero_add _).symm).trans ?_
  rw [refDot_plain]
  refine Eq.trans ?_ (Cert.Lib.PlainDot.plain_dotGeneral_apply none .single x wg r c).symm
  show (∑ k : Fin 96, x (ix2 r k) * catW wg wl (ix2 k (⟨c.val, by omega⟩ : Fin 192)))
      + catB bl (ix2 (0 : Fin 1) (⟨c.val, by omega⟩ : Fin 192)) = _
  rw [catB_left, add_zero]
  exact Finset.sum_congr rfl fun k _ => by rw [catW_left]

/-- Columns 96 … 191 of the dense stage: the product with W_lin, plus b_lin under every row. -/
theorem skip_half (x : FVec Ideal S50000x96 .f32) (wg wl : FVec Ideal S96x96 .f32) (bl : FVec Ideal S96 .f32) :
    extractStridedSlice S50000x96 ![0, 96] (dense x (catW wg wl) (catB bl)) slices_S50000x192_S50000x96_0_96
      = addf (Host.dotGeneral Cert.ReferenceIdeal.dot_S50000x96_S96x96_S50000x96_1_0_0_1_n_n none x wl) (biasRows bl) := by
  funext i
  obtain ⟨r, c, rfl⟩ : ∃ (r : Fin 50000) (c : Fin 96), i = ix2 r c := ⟨i 0, i 1, eq_ix2 i⟩
  refine (slice2_axis1_apply 96 _ _ r c (⟨96 + c.val, by omega⟩ : Fin 192) rfl).trans ?_
  rw [refDot_plain]
  show _ = FloatOps.dotGeneral (DotDims.plain 50000 96 96) none .single x wl (ix2 r c) + biasRows bl (ix2 r c)
  rw [Cert.Lib.PlainDot.plain_dotGeneral_apply none .single x wl r c, biasRows_apply]
  show (∑ k : Fin 96, x (ix2 r k) * catW wg wl (ix2 k (⟨96 + c.val, by omega⟩ : Fin 192)))
      + catB bl (ix2 (0 : Fin 1) (⟨96 + c.val, by omega⟩ : Fin 192)) = _
  rw [catB_right]
  exact congrArg (· + bl (ix1 c)) (Finset.sum_congr rfl fun k _ => by rw [catW_right])

/-- The graph bias as a row under every row is the graph bias under every row. -/
theorem rows_bias (bg : FVec Ideal S96 .f32) :
    (rows (shapeCast S1x96 bg shapeCasts_S96_S1x96) : FVec Ideal S50000x96 .f32) = biasRows bg := by
  funext i
  obtain ⟨r, c, rfl⟩ : ∃ (r : Fin 50000) (c : Fin 96), i = ix2 r c := ⟨i 0, i 1, eq_ix2 i⟩
  refine Eq.trans ?_ (biasRows_apply bg r c).symm
  exact shapeCast_a_1a_apply bg _ (0 : Fin 1) c

/-! ## The bridge -/

/-- The kernel program's value is the reference's. -/
theorem kernel_eq_ref (x : FVec Ideal S50000x96 .f32) (e : IVec S2x800000 32) (wg : FVec Ideal S96x96 .f32) (bg : FVec Ideal S96 .f32)
    (wl : FVec Ideal S96x96 .f32) (bl : FVec Ideal S96 .f32) :
    kernelValue x e wg bg wl bl = refValue x e wg bg wl bl := by
  unfold kernelValue refValue epilogue
  rw [graph_half, skip_half, hostMish_eq, rows_bias]

end Halves

end Cert.Gcn

end
-- ==== Proof.lean ====
/-
  The certificate of a graph-convolution layer with a skip path and a mish activation, on 50000 nodes with 96 features
  and 800000 edges: a Pallas program of two kernels against its jax.numpy reference, equal as extended reals.

  The kernel program multiplies the node features ONCE by the two weight matrices laid side by side (with a zero bias
  beside the skip bias), cuts the product into the graph half and the skip half, aggregates the graph half over the
  edges with plain host operations (degree count, symmetric normalisation, gather, scatter-add), and in a second kernel
  adds the graph bias and the skip half and applies mish. The reference multiplies by each matrix separately and applies
  the same aggregation and the same arithmetic on the host.

  The two are one function of the arguments (Proof/Bridge.lean): a column of the side-by-side product is a column of one
  of the two products; the zero bias adds nothing; mish is spelt with the same operations but for −a written 0 − a.
  The kernel program's value is read off its run segment by segment (Proof/KernelRun.lean over Proof/Region0.lean and
  Proof/Region1.lean: each kernel's ten row blocks tile its output and each block is a block of one whole-array
  function); the reference's off its run's composed term (Proof/RefValueEq.lean). No law used needs the inputs finite.
  The frames are the generated ones; the idealization rewrote nothing, so `preserves` has nothing to state.
-/
import proofs.«167006_j84301618086372_1_alg».proof.Defs
import proofs.«167006_j84301618086372_1_alg».proof.Proof.Gen.Kernel
import proofs.«167006_j84301618086372_1_alg».proof.Proof.Gen.Kernel.Skeleton
import proofs.«167006_j84301618086372_1_alg».proof.Proof.Gen.Kernel.Launch
import proofs.«167006_j84301618086372_1_alg».proof.Proof.Gen.Kernel.Points
import proofs.«167006_j84301618086372_1_alg».proof.Proof.Gen.Kernel.Frame
import proofs.«167006_j84301618086372_1_alg».proof.Proof.Gen.KernelIdeal
import proofs.«167006_j84301618086372_1_alg».proof.Proof.Gen.KernelIdeal.Skeleton
import proofs.«167006_j84301618086372_1_alg».proof.Proof.Gen.KernelIdeal.Launch
import proofs.«167006_j84301618086372_1_alg».proof.Proof.Gen.KernelIdeal.Points
import proofs.«167006_j84301618086372_1_alg».proof.Proof.Gen.KernelIdeal.Frame
import proofs.«167006_j84301618086372_1_alg».proof.Proof.Gen.ReferenceIdeal
import proofs.«167006_j84301618086372_1_alg».proof.Proof.Gen.Pre_finite_inputs
import proofs.«167006_j84301618086372_1_alg».proof.Proof.RefRun
import proofs.«167006_j84301618086372_1_alg».proof.Proof.KernelRun
import proofs.«167006_j84301618086372_1_alg».proof.Proof.RefValueEq
import proofs.«167006_j84301618086372_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end, from memories agreeing on the arguments, with the result array at one function of the arguments:
    the kernel program's value, which is the reference's. -/
theorem algebraic : Cert.algebraic_KernelIdeal_ReferenceIdeal := by
  intro m ρ m' ρ' _ hagree
  refine ⟨_, Cert.Gcn.KernelRun.run_value m ρ, ?_⟩
  refine (θ_run Cert.ReferenceIdeal.defs _ _).mono (fun _ h c => ⟨(h c).1.trans ?_, (h c).2⟩)
    (Cert.ReferenceIdeal.ValueP.run (F := Ideal) m' ρ')
  refine (Cert.Gcn.RefValue.result_eq m' c).trans ?_
  rw [(hagree c).1, (hagree c).2.1, (hagree c).2.2.1, (hagree c).2.2.2.1, (hagree c).2.2.2.2.1, (hagree c).2.2.2.2.2]
  exact (Cert.Gcn.kernel_eq_ref _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
